-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1650000x128 : Shape := ⟨2, ![1650000, 128]⟩
abbrev S1x128 : Shape := ⟨2, ![1, 128]⟩
abbrev S50000x64 : Shape := ⟨2, ![50000, 64]⟩
abbrev S5000x64 : Shape := ⟨2, ![5000, 64]⟩
abbrev S1650000x64 : Shape := ⟨2, ![1650000, 64]⟩
abbrev S1x64 : Shape := ⟨2, ![1, 64]⟩

abbrev nBuf : Space → Nat
  | .hbm => 87
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x128, .f32⟩
  | .hbm, ⟨47, _⟩ => ⟨S50000x128, .bf16⟩
  | .hbm, ⟨48, _⟩ => ⟨S_, .i32⟩
  | .hbm, ⟨49, _⟩ => ⟨S1650000, .i32⟩
  | .hbm, ⟨50, _⟩ => ⟨S1650000, .i1⟩
  | .hbm, ⟨51, _⟩ => ⟨S_, .i32⟩
  | .hbm, ⟨52, _⟩ => ⟨S1650000, .i32⟩
  | .hbm, ⟨53, _⟩ => ⟨S1650000, .i32⟩
  | .hbm, ⟨54, _⟩ => ⟨S1650000, .i32⟩
  | .hbm, ⟨55, _⟩ => ⟨S1650000x1, .i32⟩
  | .hbm, ⟨56, _⟩ => ⟨S1650000x128, .bf16⟩
  | .hbm, ⟨57, _⟩ => ⟨S1650000x128, .f32⟩
  | .hbm, ⟨58, _⟩ => ⟨S1650000x1, .f32⟩
  | .hbm, ⟨59, _⟩ => ⟨S1650000x128, .f32⟩
  | .hbm, ⟨60, _⟩ => ⟨S1650000x128, .f32⟩
  | .hbm, ⟨61, _⟩ => ⟨S_, .f32⟩
  | .hbm, ⟨62, _⟩ => ⟨S50000x128, .f32⟩
  | .hbm, ⟨63, _⟩ => ⟨S1650000x1, .i32⟩
  | .hbm, ⟨64, _⟩ => ⟨S50000x128, .f32⟩
  | .hbm, ⟨65, _⟩ => ⟨S1x128, .f32⟩
  | .hbm, ⟨66, _⟩ => ⟨S50000x64, .f32⟩
  | .hbm, ⟨67, _⟩ => ⟨S50000x64, .bf16⟩
  | .hbm, ⟨68, _⟩ => ⟨S_, .i32⟩
  | .hbm, ⟨69, _⟩ => ⟨S1650000, .i32⟩
  | .hbm, ⟨70, _⟩ => ⟨S1650000, .i1⟩
  | .hbm, ⟨71, _⟩ => ⟨S_, .i32⟩
  | .hbm, ⟨72, _⟩ => ⟨S1650000, .i32⟩
  | .hbm, ⟨73, _⟩ => ⟨S1650000, .i32⟩
  | .hbm, ⟨74, _⟩ => ⟨S1650000, .i32⟩
  | .hbm, ⟨75, _⟩ => ⟨S1650000x1, .i32⟩
  | .hbm, ⟨76, _⟩ => ⟨S1650000x64, .bf16⟩
  | .hbm, ⟨77, _⟩ => ⟨S1650000x64, .f32⟩
  | .hbm, ⟨78, _⟩ => ⟨S1650000x1, .f32⟩
  | .hbm, ⟨79, _⟩ => ⟨S1650000x64, .f32⟩
  | .hbm, ⟨80, _⟩ => ⟨S1650000x64, .f32⟩
  | .hbm, ⟨81, _⟩ => ⟨S_, .f32⟩
  | .hbm, ⟨82, _⟩ => ⟨S50000x64, .f32⟩
  | .hbm, ⟨83, _⟩ => ⟨S1650000x1, .i32⟩
  | .hbm, ⟨84, _⟩ => ⟨S50000x64, .f32⟩
  | .hbm, ⟨85, _⟩ => ⟨S1x64, .f32⟩
  | .hbm, ⟨86, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S50000, .i32⟩
  | 7 => ⟨S1x1600000, .i32⟩
  | 8 => ⟨S1600000, .i32⟩
  | 9 => ⟨S1650000, .i32⟩
  | 10 => ⟨S1x1600000, .i32⟩
  | 11 => ⟨S1600000, .i32⟩
  | 12 => ⟨S1650000, .i32⟩
  | 13 => ⟨S50000x128, .f32⟩
  | 14 => ⟨S_, .f32⟩
  | 15 => ⟨S1650000, .f32⟩
  | 16 => ⟨S_, .f32⟩
  | 17 => ⟨S50000, .f32⟩
  | 18 => ⟨S1650000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S1650000, .i32⟩
  | 30 => ⟨S1650000, .i1⟩
  | 31 => ⟨S_, .i32⟩
  | 32 => ⟨S1650000, .i32⟩
  | 33 => ⟨S1650000, .i32⟩
  | 34 => ⟨S1650000, .i32⟩
  | 35 => ⟨S1650000x1, .i32⟩
  | 36 => ⟨S1650000, .f32⟩
  | 37 => ⟨S_, .i32⟩
  | 38 => ⟨S1650000, .i32⟩
  | 39 => ⟨S1650000, .i1⟩
  | 40 => ⟨S_, .i32⟩
  | 41 => ⟨S1650000, .i32⟩
  | 42 => ⟨S1650000, .i32⟩
  | 43 => ⟨S1650000, .i32⟩
  | 44 => ⟨S1650000x1, .i32⟩
  | 45 => ⟨S1650000, .f32⟩
  | 46 => ⟨S1650000, .f32⟩
  | 47 => ⟨S_, .i32⟩
  | 48 => ⟨S1650000, .i32⟩
  | 49 => ⟨S1650000, .i1⟩
  | 50 => ⟨S_, .i32⟩
  | 51 => ⟨S1650000, .i32⟩
  | 52 => ⟨S1650000, .i32⟩
  | 53 => ⟨S1650000, .i32⟩
  | 54 => ⟨S1650000x1, .i32⟩
  | 55 => ⟨S1650000x128, .f32⟩
  | 56 => ⟨S1650000x1, .f32⟩
  | 57 => ⟨S1650000x128, .f32⟩
  | 58 => ⟨S1650000x128, .f32⟩
  | 59 => ⟨S_, .f32⟩
  | 60 => ⟨S50000x128, .f32⟩
  | 61 => ⟨S1650000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x64, .f32⟩
  | 70 => ⟨S_, .f32⟩
  | 71 => ⟨S1650000, .f32⟩
  | 72 => ⟨S_, .f32⟩
  | 73 => ⟨S50000, .f32⟩
  | 74 => ⟨S1650000x1, .i32⟩
  | 75 => ⟨S50000, .f32⟩
  | 76 => ⟨S_, .f32⟩
  | 77 => ⟨S50000, .f32⟩
  | 78 => ⟨S50000, .i1⟩
  | 79 => ⟨S50000, .f32⟩
  | 80 => ⟨S_, .f32⟩
  | 81 => ⟨S_, .f32⟩
  | 82 => ⟨S50000, .f32⟩
  | 83 => ⟨S50000, .f32⟩
  | 84 => ⟨S_, .i32⟩
  | 85 => ⟨S1650000, .i32⟩
  | 86 => ⟨S1650000, .i1⟩
  | 87 => ⟨S_, .i32⟩
  | 88 => ⟨S1650000, .i32⟩
  | 89 => ⟨S1650000, .i32⟩
  | 90 => ⟨S1650000, .i32⟩
  | 91 => ⟨S1650000x1, .i32⟩
  | 92 => ⟨S1650000, .f32⟩
  | 93 => ⟨S_, .i32⟩
  | 94 => ⟨S1650000, .i32⟩
  | 95 => ⟨S1650000, .i1⟩
  | 96 => ⟨S_, .i32⟩
  | 97 => ⟨S1650000, .i32⟩
  | 98 => ⟨S1650000, .i32⟩
  | 99 => ⟨S1650000, .i32⟩
  | 100 => ⟨S1650000x1, .i32⟩
  | 101 => ⟨S1650000, .f32⟩
  | 102 => ⟨S1650000, .f32⟩
  | 103 => ⟨S_, .i32⟩
  | 104 => ⟨S1650000, .i32⟩
  | 105 => ⟨S1650000, .i1⟩
  | 106 => ⟨S_, .i32⟩
  | 107 => ⟨S1650000, .i32⟩
  | 108 => ⟨S1650000, .i32⟩
  | 109 => ⟨S1650000, .i32⟩
  | 110 => ⟨S1650000x1, .i32⟩
  | 111 => ⟨S1650000x64, .f32⟩
  | 112 => ⟨S1650000x1, .f32⟩
  | 113 => ⟨S1650000x64, .f32⟩
  | 114 => ⟨S1650000x64, .f32⟩
  | 115 => ⟨S_, .f32⟩
  | 116 => ⟨S50000x64, .f32⟩
  | 117 => ⟨S1650000x1, .i32⟩
  | 118 => ⟨S50000x64, .f32⟩
  | 119 => ⟨S1x64, .f32⟩
  | 120 => ⟨S50000x64, .f32⟩
  | 121 => ⟨S50000x64, .f32⟩
  | 122 => ⟨S50000x64, .f32⟩
  | 123 => ⟨S50000x64, .f32⟩
  | 124 => ⟨S_, .f32⟩
  | 125 => ⟨S50000x64, .f32⟩
  | 126 => ⟨S50000x64, .f32⟩
  | 127 => ⟨S_, .f32⟩
  | _ => ⟨S50000x128, .f32⟩

abbrev hbmTy0_1 (i : Nat) : BufTy := match i % 128 with
  | 0 => ⟨S50000x64, .f32⟩
  | 1 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_20 : Ref sig .tc := ⟨.hbm, 124, rfl⟩
abbrev main_v90 : Ref sig .tc := ⟨.hbm, 125, rfl⟩
abbrev main_v91 : Ref sig .tc := ⟨.hbm, 126, rfl⟩
abbrev main_cst_21 : Ref sig .tc := ⟨.hbm, 127, rfl⟩
abbrev main_v92 : Ref sig .tc := ⟨.hbm, 128, rfl⟩
abbrev main_v93 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.KernelRun.lean ====
/-
  The idealized kernel's whole run, read at its end. @main is three pallas regions among stretches of host operations;
  along it the contents of a core's buffers are a fold: each host stretch applies its operations, each region replaces
  its windows' arrays by what its pipeline's write-backs leave. After the last region every unscoped buffer of every core
  holds the last value of that fold, so any property of the final memory that follows from those contents holds of every
  weakly fair execution (`run_last`). In particular the result array `main_v64` ends at the fold read at `main_v64`,
  which is what the third region's pipeline leaves in its output window, and the six argument arrays end as launched
  (`run_named`).
-/
import proofs.«168433_j13907104104963_2_alg».proof.Defs
import proofs.«168433_j13907104104963_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, in a memory where every unscoped buffer of every
    core holds the last boundary's contents; so it ends in any `Q` that those contents imply. -/
theorem run_last {Q : PUnit × MemSt nD τ sig (Elt F) → Prop}
    (hQ : ∀ s : MemSt nD τ sig (Elt F),
      (∀ c : Dev nD, ∀ b ∈ Pipeline.ucRefs τ sig, s.mem (((c : Thread nD τ)).1, b) = W8 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := hQ)

/-- The run with the result array named: it ends at the last boundary's contents read at `main_v64`, and the six
    argument arrays end as launched. -/
theorem run_named : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_last m ρ fun s h c =>
    ⟨h c _ (mem_uc main_v64 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c)⟩

/-- The last boundary's contents at the result array are what the third region's pipeline leaves in its output
    window (window 2 of that region stages `main_v64`). -/
theorem last_result (c : Dev nD) :
    W8 m ρ c (Proc.devRef .tc main_v64) = (dat2 (V7 m ρ) c).arrAt 2 cfg2.N :=
  W8_arr m ρ c 2

end Cert.KernelIdeal.Whole

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.Layers.lean ====
/-
  The three dense stages of a two-layer graph convolution, as functions of whole arrays of extended reals, and what each
  kernel body stores at an entry of its block.

  * `prod X W`   : the matrix product, entry (r, c) = Σ_k X(r,k) · W(k,c) over the 128 contracted columns;
  * `hidden H b` : a bias row added to every row of `H` and the result rectified, entry (r, k) = max (H(r,k) + b(k)) 0;
  * `squash H b` : a bias row added to every row and the logistic function applied, entry (r, c) = 1 / (1 + e^{-(H(r,c) + b(c))}).

  The first kernel body stores `prod` of its two blocks, the second `prod` of `hidden` of its row block and bias row with its
  weight block, the third `squash` of its row block and bias row: a change of float format is the identity on the extended
  reals, a matrix product accumulated into the zero word is the plain sum, a cast to the same shape does nothing, and a
  one-row array spread over the rows reads its one row.
-/
import proofs.«168433_j13907104104963_2_alg».proof.Proof.Gen.KernelIdeal.Skeleton
import proofs.«168433_j13907104104963_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.Layers

open Idealize.ShloMosaic Idealize.ShloMosaic.ValueIdx

/-- An [a, b] array of extended reals. -/
abbrev Mat (a b : ℕ) : Type := (⟨2, ![a, b]⟩ : Shape).Idx → EReal
/-- A [b] array of extended reals. -/
abbrev Row (b : ℕ) : Type := (⟨1, ![b]⟩ : Shape).Idx → EReal

/-- The zero the rectifier compares against: what the f32 word of +0 denotes. -/
abbrev zeroWord : EReal := Ideal.ofBits .f32 0x00000000#32

/-- The product of an [a, 128] matrix with a [128, n] matrix. -/
def prod {a n : ℕ} (X : Mat a 128) (W : Mat 128 n) : Mat a n :=
  fun i => ∑ k : Fin 128, X (ix2 (i 0) k) * W (ix2 k (i 1))

/-- A bias row added to every row, then the maximum with zero. -/
def hidden {a : ℕ} (H : Mat a 128) (b : Row 128) : Mat a 128 :=
  fun i => max (H i + b (ix1 (i 1))) zeroWord

/-- A bias row added to every row, then the logistic function. -/
def squash {a : ℕ} (H : Mat a 64) (b : Row 64) : Mat a 64 :=
  fun i => Ideal.logistic (H i + b (ix1 (i 1)))

theorem prod_apply {a n : ℕ} (X : Mat a 128) (W : Mat 128 n) (r : Fin a) (c : Fin n) :
    prod X W (ix2 r c) = ∑ k : Fin 128, X (ix2 r k) * W (ix2 k c) := rfl

theorem hidden_apply {a : ℕ} (H : Mat a 128) (b : Row 128) (r : Fin a) (k : Fin 128) :
    hidden H b (ix2 r k) = max (H (ix2 r k) + b (ix1 k)) zeroWord := rfl

theorem squash_apply {a : ℕ} (H : Mat a 64) (b : Row 64) (r : Fin a) (c : Fin 64) :
    squash H b (ix2 r c) = Ideal.logistic (H (ix2 r c) + b (ix1 c)) := rfl

end Cert.Layers

namespace Cert.KernelIdeal.Stored

open Cert.KernelIdeal Cert.KernelIdeal.Gen Cert.Layers
open Idealize.ShloMosaic Idealize.ShloMosaic.ValueIdx

/-- The first body's stored value at entry (p, q) of its block: row p of the row block against column q of the weights. -/
theorem first_entry (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact PlainDot.matmul_zero_apply dot_S5000x128_S128x128_S5000x128_1_0_0_1_n_n rfl none
    (truncf .bf16 x0 bitsLt_bf16_f32) (truncf .bf16 x1 bitsLt_bf16_f32) (ix2 p q)

/-- The rectified, biased row block of the second body at entry (p, k). -/
theorem second_lhs_entry (x0 : Vec Ideal S5000x128 .f32) (x2 : Vec Ideal S1x128 .f32) (p : Fin 5000) (k : Fin 128) :
    maximumf (addf (shapeCast S5000x128 x0 shapeCasts_S5000x128_S5000x128)
        (broadcastTo S5000x128 (shapeCast S1x128 x2 shapeCasts_S1x128_S1x128) broadcasts_S1x128_S5000x128))
      (broadcast S5000x128 (Scalar.ofBits (F := Ideal) .f32 0x00000000#32)) (ix2 p k)
      = max (x0 (ix2 p k) + x2 (ix2 (0 : Fin 1) k)) zeroWord := by
  rw [shapeCast_self, shapeCast_self]
  show max (x0 (ix2 p k) + broadcastTo S5000x128 x2 broadcasts_S1x128_S5000x128 (ix2 p k)) _ = _
  rw [broadcastTo_1b_ab_apply x2 broadcasts_S1x128_S5000x128 p k]
  rfl

/-- The second body's stored value at entry (p, q) of its block. -/
theorem second_entry (x0 : Vec Ideal S5000x128 .f32) (x2 : Vec Ideal S1x128 .f32) (x9 : Vec Ideal S128x64 .f32)
    (p : Fin 5000) (q : Fin 64) :
    k1_pay1 x0 x2 x9 (ix2 p q)
      = ∑ k : Fin 128, max (x0 (ix2 p k) + x2 (ix2 (0 : Fin 1) k)) zeroWord * x9 (ix2 k q) := by
  unfold k1_pay1
  refine (PlainDot.matmul_zero_apply dot_S5000x128_S128x64_S5000x64_1_0_0_1_n_n rfl none _ _ (ix2 p q)).trans ?_
  refine Finset.sum_congr rfl fun k _ => ?_
  refine congrArg (· * x9 (ix2 k q)) ?_
  exact second_lhs_entry x0 x2 p k

/-- The third body's stored value at entry (p, q) of its block. -/
theorem third_entry (x0 : Vec Ideal S5000x64 .f32) (x2 : Vec Ideal S1x64 .f32) (p : Fin 5000) (q : Fin 64) :
    k2_pay1 x0 x2 (ix2 p q) = Ideal.logistic (x0 (ix2 p q) + x2 (ix2 (0 : Fin 1) q)) := by
  unfold k2_pay1
  rw [shapeCast_self, shapeCast_self]
  show Ideal.logistic (x0 (ix2 p q) + broadcastTo S5000x64 x2 broadcasts_S1x64_S5000x64 (ix2 p q)) = _
  rw [broadcastTo_1b_ab_apply x2 broadcasts_S1x64_S5000x64 p q]

end Cert.KernelIdeal.Stored

end
-- ==== Proof.Region0.lean ====
/-
  The first pallas region (the matrix product of the node features with the first weight matrix), read as a value: whatever
  the buffers hold when the region is entered, its output array ends holding the product of the two arrays its input windows
  stage.

  The grid has ten points; point t stages rows 5000·t … 5000·t + 4999 of the [50000, 128] left array and the whole
  [128, 128] right array, and writes back the same rows of the output. So what point t writes back is block t of the product
  of the whole arrays (a row of a product depends on that row of the left factor only), and the ten blocks tile the rows.
-/
import proofs.«168433_j13907104104963_2_alg».proof.Proof.Gen.KernelIdeal.Frame
import proofs.«168433_j13907104104963_2_alg».proof.Proof.Layers
import Idealize.ShloMosaic.Lib.Pipeline.Value

set_option maxRecDepth 16384

noncomputable section

namespace Cert.KernelIdeal.First

open Cert.KernelIdeal Cert.KernelIdeal.Gen Cert.Layers
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the ten points: the left array's window moves down the rows with the output's, on
    columns all windows sit at block 0, the right array's window stays at block (0, 0), and the output's row block
    is one of 0 … 9. -/
theorem maps : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block 0 … 9 is some point's. -/
theorem onto : ∀ q0 : Fin 10, ∃ t : Fin cfg0.N, win0_2.index t = ![q0.val, 0] :=
  (by decide +kernel : ∀ q0 : Fin 10, ∃ t : Fin grid0.N, win0_2.index t = ![q0.val, 0])

/-- One entry: if row p of the row block is row r of the left array and the weight block is the right array on column q,
    the stored value at (p, q) is the product's entry (r, q). -/
theorem point (x0 : Vec Ideal S5000x128 .f32) (x1 : Vec Ideal S128x128 .f32) (A0 : Mat 50000 128) (A1 : Mat 128 128)
    (p : Fin 5000) (q : Fin 128) (r : Fin 50000)
    (h0 : ∀ k : Fin 128, x0 (ix2 p k) = A0 (ix2 r k))
    (h1 : ∀ k : Fin 128, x1 (ix2 k q) = A1 (ix2 k q)) :
    k0_pay1 x0 x1 (ix2 p q) = prod A0 A1 (ix2 r q) := by
  rw [Stored.first_entry, prod_apply]
  exact Finset.sum_congr rfl fun k _ => by rw [h0 k, h1 k]

/-- What point t writes back is block t of the product of the two staged arrays. -/
theorem flushed_eq (c : Dev nD) (t : Fin cfg0.N) :
    (dat0 (F := Ideal) V c).flushed 2 t
      = ((cfg0.win 2).blk t).view.read (Elt Ideal) (prod (V c main_arg0) (V c main_arg2)) := by
  show (cfg0.win 2).cut (grid0.coords t) ((dat0 (F := Ideal) V c).after 2 t) = _
  rw [after0_2]
  unfold out0_2
  rw [View.canon_unit_zero zeros2]
  simp only [View.ld_unit_zero (S := S5000x128) zeros2, View.ld_unit_zero (S := S128x128) zeros2]
  obtain ⟨e0, e1, e2, e3, e4, e5⟩ := maps t
  funext j
  have hp : (j 0).val < 5000 := (j 0).isLt
  have hq : (j 1).val < 128 := (j 1).isLt
  have hr : win0_2.index t (0 : Fin 2) * 5000 + (j 0).val < 50000 := by omega
  have ej : (cfg0.win 2).xinj (grid0.coords t) j = ix2 (⟨(j 0).val, hp⟩ : Fin 5000) (⟨(j 1).val, hq⟩ : Fin 128) :=
    funext fun a => match a with
      | ⟨0, _⟩ => rfl
      | ⟨1, _⟩ => rfl
  have ei : ((cfg0.win 2).blk t).view.emb j
      = ix2 (⟨win0_2.index t (0 : Fin 2) * 5000 + (j 0).val, hr⟩ : Fin 50000) (⟨(j 1).val, hq⟩ : Fin 128) :=
    funext fun a => Fin.ext (by
      match a with
      | ⟨0, _⟩ => show win0_2.index t (0 : Fin 2) * 5000 + 1 * (j 0).val = win0_2.index t (0 : Fin 2) * 5000 + (j 0).val; omega
      | ⟨1, _⟩ => show win0_2.index t (1 : Fin 2) * 128 + 1 * (j 1).val = (j 1).val; omega)
  show k0_pay1 (iblk0 V c 0 t) (iblk0 V c 1 t) ((cfg0.win 2).xinj (grid0.coords t) j)
    = prod (V c main_arg0) (V c main_arg2) (((cfg0.win 2).blk t).view.emb j)
  rw [ej, ei]
  refine point (iblk0 V c 0 t) (iblk0 V c 1 t) (V c main_arg0) (V c main_arg2) _ _ _ ?_ ?_
  · intro k
    show V c main_arg0 (((cfg0.win 0).blk t).view.emb (ix2 (⟨(j 0).val, hp⟩ : Fin 5000) k)) = _
    refine congrArg (V c main_arg0) (funext fun a => Fin.ext ?_)
    match a with
    | ⟨0, _⟩ => show win0_0.index t (0 : Fin 2) * 5000 + 1 * (j 0).val = win0_2.index t (0 : Fin 2) * 5000 + (j 0).val; omega
    | ⟨1, _⟩ => show win0_0.index t (1 : Fin 2) * 128 + 1 * k.val = k.val; omega
  · intro k
    show V c main_arg2 (((cfg0.win 1).blk t).view.emb (ix2 k (⟨(j 1).val, hq⟩ : Fin 128))) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = (j 1).val; omega

/-- An index of the output array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Row r of the output is written back by the point whose row block is r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its output array holds the product of the two arrays its input windows stage, as the region
    finds them. -/
theorem array (c : Dev nD) :
    (dat0 (F := Ideal) V c).arrAt 2 cfg0.N = prod (V c main_arg0) (V c main_arg2) :=
  (dat0 (F := Ideal) V c).arrAt_eq_of_cover 2 (prod (V c main_arg0) (V c main_arg2)) (fun t _ => flushed_eq V c t) cover

end Cert.KernelIdeal.First

end
-- ==== Proof.Region1.lean ====
/-
  The second pallas region (bias, rectifier, then the product with the second weight matrix), read as a value: whatever the
  buffers hold when the region is entered, its output array ends holding the product of the rectified, biased left array
  with the right array.

  The grid has ten points; point t stages rows 5000·t … 5000·t + 4999 of the [50000, 128] left array, the whole [1, 128]
  bias row and the whole [128, 64] right array, and writes back the same rows of the [50000, 64] output. A row of the
  result depends on that row of the left array only, so what point t writes back is block t of the whole-array function,
  and the ten blocks tile the rows.
-/
import proofs.«168433_j13907104104963_2_alg».proof.Proof.Gen.KernelIdeal.Frame
import proofs.«168433_j13907104104963_2_alg».proof.Proof.Layers
import Idealize.ShloMosaic.Lib.Pipeline.Value

set_option maxRecDepth 16384

noncomputable section

namespace Cert.KernelIdeal.Second

open Cert.KernelIdeal Cert.KernelIdeal.Gen Cert.Layers
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the ten points: the left array's window moves down the rows with the output's, the bias
    row's and the right array's windows stay at block (0, 0), and the output's row block is one of 0 … 9. -/
theorem maps : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every row block 0 … 9 is some point's. -/
theorem onto : ∀ q0 : Fin 10, ∃ t : Fin cfg1.N, win1_3.index t = ![q0.val, 0] :=
  (by decide +kernel : ∀ q0 : Fin 10, ∃ t : Fin grid1.N, win1_3.index t = ![q0.val, 0])

/-- One entry: if row p of the row block is row r of the left array, the bias block is the bias row and the weight block
    is the right array on column q, the stored value at (p, q) is the whole-array function's entry (r, q). -/
theorem point (x0 : Vec Ideal S5000x128 .f32) (x2 : Vec Ideal S1x128 .f32) (x9 : Vec Ideal S128x64 .f32)
    (A : Mat 50000 128) (b : Row 128) (Wt : Mat 128 64) (p : Fin 5000) (q : Fin 64) (r : Fin 50000)
    (h0 : ∀ k : Fin 128, x0 (ix2 p k) = A (ix2 r k))
    (h2 : ∀ k : Fin 128, x2 (ix2 (0 : Fin 1) k) = b (ix1 k))
    (h9 : ∀ k : Fin 128, x9 (ix2 k q) = Wt (ix2 k q)) :
    k1_pay1 x0 x2 x9 (ix2 p q) = prod (hidden A b) Wt (ix2 r q) := by
  rw [Stored.second_entry, prod_apply]
  exact Finset.sum_congr rfl fun k _ => by rw [hidden_apply, h0 k, h2 k, h9 k]

/-- What point t writes back is block t of the whole-array function of the three staged arrays. -/
theorem flushed_eq (c : Dev nD) (b : Row 128) (hb : ∀ k : Fin 128, V c main_v46 (ix2 (0 : Fin 1) k) = b (ix1 k))
    (t : Fin cfg1.N) :
    (dat1 (F := Ideal) V c).flushed 3 t
      = ((cfg1.win 3).blk t).view.read (Elt Ideal) (prod (hidden (V c main_v45) b) (V c main_arg4)) := by
  show (cfg1.win 3).cut (grid1.coords t) ((dat1 (F := Ideal) V c).after 3 t) = _
  rw [after1_3]
  unfold out1_3
  rw [View.canon_unit_zero zeros2]
  simp only [View.ld_unit_zero (S := S5000x128) zeros2, View.ld_unit_zero (S := S1x128) zeros2,
    View.ld_unit_zero (S := S128x64) zeros2]
  obtain ⟨e0, e1, e2, e3, e4, e5, e6, e7⟩ := maps t
  funext j
  have hp : (j 0).val < 5000 := (j 0).isLt
  have hq : (j 1).val < 64 := (j 1).isLt
  have hr : win1_3.index t (0 : Fin 2) * 5000 + (j 0).val < 50000 := by omega
  have ej : (cfg1.win 3).xinj (grid1.coords t) j = ix2 (⟨(j 0).val, hp⟩ : Fin 5000) (⟨(j 1).val, hq⟩ : Fin 64) :=
    funext fun a => match a with
      | ⟨0, _⟩ => rfl
      | ⟨1, _⟩ => rfl
  have ei : ((cfg1.win 3).blk t).view.emb j
      = ix2 (⟨win1_3.index t (0 : Fin 2) * 5000 + (j 0).val, hr⟩ : Fin 50000) (⟨(j 1).val, hq⟩ : Fin 64) :=
    funext fun a => Fin.ext (by
      match a with
      | ⟨0, _⟩ => show win1_3.index t (0 : Fin 2) * 5000 + 1 * (j 0).val = win1_3.index t (0 : Fin 2) * 5000 + (j 0).val; omega
      | ⟨1, _⟩ => show win1_3.index t (1 : Fin 2) * 64 + 1 * (j 1).val = (j 1).val; omega)
  show k1_pay1 (iblk1 V c 0 t) (iblk1 V c 1 t) (iblk1 V c 2 t) ((cfg1.win 3).xinj (grid1.coords t) j)
    = prod (hidden (V c main_v45) b) (V c main_arg4) (((cfg1.win 3).blk t).view.emb j)
  rw [ej, ei]
  refine point (iblk1 V c 0 t) (iblk1 V c 1 t) (iblk1 V c 2 t) (V c main_v45) b (V c main_arg4) _ _ _ ?_ ?_ ?_
  · intro k
    show V c main_v45 (((cfg1.win 0).blk t).view.emb (ix2 (⟨(j 0).val, hp⟩ : Fin 5000) k)) = _
    refine congrArg (V c main_v45) (funext fun a => Fin.ext ?_)
    match a with
    | ⟨0, _⟩ => show win1_0.index t (0 : Fin 2) * 5000 + 1 * (j 0).val = win1_3.index t (0 : Fin 2) * 5000 + (j 0).val; omega
    | ⟨1, _⟩ => show win1_0.index t (1 : Fin 2) * 128 + 1 * k.val = k.val; omega
  · intro k
    refine Eq.trans ?_ (hb k)
    show V c main_v46 (((cfg1.win 1).blk t).view.emb (ix2 (0 : Fin 1) k)) = _
    refine congrArg (V c main_v46) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · intro k
    show V c main_arg4 (((cfg1.win 2).blk t).view.emb (ix2 k (⟨(j 1).val, hq⟩ : Fin 64))) = _
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 64 + 1 * (j 1).val = (j 1).val; omega

/-- An index of the output array is in point t's block iff each coordinate is in the block's range on its axis. -/
theorem mem_blk (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v47).slice (win1_3.rect t)).set ↔ _
  rw [View.set_slice_whole, Rect.mem_set_unit]
  exact Iff.rfl

/-- Row r of the output is written back by the point whose row block is r / 5000. -/
theorem cover (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After the region its output array holds the product of the rectified, biased left array with the right array, as
    the region finds them; `b` is the bias row the [1, 128] window's array holds. -/
theorem array (c : Dev nD) (b : Row 128) (hb : ∀ k : Fin 128, V c main_v46 (ix2 (0 : Fin 1) k) = b (ix1 k)) :
    (dat1 (F := Ideal) V c).arrAt 3 cfg1.N = prod (hidden (V c main_v45) b) (V c main_arg4) :=
  (dat1 (F := Ideal) V c).arrAt_eq_of_cover 3 (prod (hidden (V c main_v45) b) (V c main_arg4))
    (fun t _ => flushed_eq V c b hb t) cover

end Cert.KernelIdeal.Second

end
-- ==== Proof.Region2.lean ====
/-
  The third pallas region (bias, then the logistic function), read as a value: whatever the buffers hold when the region is
  entered, its output array ends holding the logistic function of the biased input array.

  The grid has ten points; point t stages rows 5000·t … 5000·t + 4999 of the [50000, 64] input array and the whole [1, 64]
  bias row, and writes back the same rows of the [50000, 64] output. The body is entrywise, so what point t writes back
  is block t of the whole-array function, and the ten blocks tile the rows.
-/
import proofs.«168433_j13907104104963_2_alg».proof.Proof.Gen.KernelIdeal.Frame
import proofs.«168433_j13907104104963_2_alg».proof.Proof.Layers
import Idealize.ShloMosaic.Lib.Pipeline.Value

set_option maxRecDepth 16384

noncomputable section

namespace Cert.KernelIdeal.Third

open Cert.KernelIdeal Cert.KernelIdeal.Gen Cert.Layers
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the ten points: the input array's window moves down the rows with the output's, the bias
    row's window stays at block (0, 0), and the output's row block is one of 0 … 9. -/
theorem maps : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block 0 … 9 is some point's. -/
theorem onto : ∀ q0 : Fin 10, ∃ t : Fin cfg2.N, win2_2.index t = ![q0.val, 0] :=
  (by decide +kernel : ∀ q0 : Fin 10, ∃ t : Fin grid2.N, win2_2.index t = ![q0.val, 0])

/-- One entry: if entry (p, q) of the input block is entry (r, q) of the input array and the bias block is the bias row,
    the stored value at (p, q) is the whole-array function's entry (r, q). -/
theorem point (x0 : Vec Ideal S5000x64 .f32) (x2 : Vec Ideal S1x64 .f32) (A : Mat 50000 64) (b : Row 64)
    (p : Fin 5000) (q : Fin 64) (r : Fin 50000)
    (h0 : x0 (ix2 p q) = A (ix2 r q))
    (h2 : x2 (ix2 (0 : Fin 1) q) = b (ix1 q)) :
    k2_pay1 x0 x2 (ix2 p q) = squash A b (ix2 r q) := by
  rw [Stored.third_entry, squash_apply, h0, h2]

/-- What point t writes back is block t of the whole-array function of the two staged arrays. -/
theorem flushed_eq (c : Dev nD) (b : Row 64) (hb : ∀ q : Fin 64, V c main_v63 (ix2 (0 : Fin 1) q) = b (ix1 q))
    (t : Fin cfg2.N) :
    (dat2 (F := Ideal) V c).flushed 2 t
      = ((cfg2.win 2).blk t).view.read (Elt Ideal) (squash (V c main_v62) b) := by
  show (cfg2.win 2).cut (grid2.coords t) ((dat2 (F := Ideal) V c).after 2 t) = _
  rw [after2_2]
  unfold out2_2
  rw [View.canon_unit_zero zeros2]
  simp only [View.ld_unit_zero (S := S5000x64) zeros2, View.ld_unit_zero (S := S1x64) zeros2]
  obtain ⟨e0, e1, e2, e3, e4, e5⟩ := maps t
  funext j
  have hp : (j 0).val < 5000 := (j 0).isLt
  have hq : (j 1).val < 64 := (j 1).isLt
  have hr : win2_2.index t (0 : Fin 2) * 5000 + (j 0).val < 50000 := by omega
  have ej : (cfg2.win 2).xinj (grid2.coords t) j = ix2 (⟨(j 0).val, hp⟩ : Fin 5000) (⟨(j 1).val, hq⟩ : Fin 64) :=
    funext fun a => match a with
      | ⟨0, _⟩ => rfl
      | ⟨1, _⟩ => rfl
  have ei : ((cfg2.win 2).blk t).view.emb j
      = ix2 (⟨win2_2.index t (0 : Fin 2) * 5000 + (j 0).val, hr⟩ : Fin 50000) (⟨(j 1).val, hq⟩ : Fin 64) :=
    funext fun a => Fin.ext (by
      match a with
      | ⟨0, _⟩ => show win2_2.index t (0 : Fin 2) * 5000 + 1 * (j 0).val = win2_2.index t (0 : Fin 2) * 5000 + (j 0).val; omega
      | ⟨1, _⟩ => show win2_2.index t (1 : Fin 2) * 64 + 1 * (j 1).val = (j 1).val; omega)
  show k2_pay1 (iblk2 V c 0 t) (iblk2 V c 1 t) ((cfg2.win 2).xinj (grid2.coords t) j)
    = squash (V c main_v62) b (((cfg2.win 2).blk t).view.emb j)
  rw [ej, ei]
  refine point (iblk2 V c 0 t) (iblk2 V c 1 t) (V c main_v62) b _ _ _ ?_ ?_
  · show V c main_v62 (((cfg2.win 0).blk t).view.emb (ix2 (⟨(j 0).val, hp⟩ : Fin 5000) (⟨(j 1).val, hq⟩ : Fin 64))) = _
    refine congrArg (V c main_v62) (funext fun a => Fin.ext ?_)
    match a with
    | ⟨0, _⟩ => show win2_0.index t (0 : Fin 2) * 5000 + 1 * (j 0).val = win2_2.index t (0 : Fin 2) * 5000 + (j 0).val; omega
    | ⟨1, _⟩ => show win2_0.index t (1 : Fin 2) * 64 + 1 * (j 1).val = (j 1).val; omega
  · refine Eq.trans ?_ (hb _)
    show V c main_v63 (((cfg2.win 1).blk t).view.emb (ix2 (0 : Fin 1) (⟨(j 1).val, hq⟩ : Fin 64))) = _
    refine congrArg (V c main_v63) (funext fun a => Fin.ext ?_)
    match a with
    | ⟨0, _⟩ => show win2_1.index t (0 : Fin 2) * 1 + 1 * 0 = 0; omega
    | ⟨1, _⟩ => show win2_1.index t (1 : Fin 2) * 64 + 1 * (j 1).val = (j 1).val; omega

/-- An index of the output array is in point t's block iff each coordinate is in the block's range on its axis. -/
theorem mem_blk (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v64).slice (win2_2.rect t)).set ↔ _
  rw [View.set_slice_whole, Rect.mem_set_unit]
  exact Iff.rfl

/-- Row r of the output is written back by the point whose row block is r / 5000. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the region its output array holds the logistic function of the biased input array, as the region finds it;
    `b` is the bias row the [1, 64] window's array holds. -/
theorem array (c : Dev nD) (b : Row 64) (hb : ∀ q : Fin 64, V c main_v63 (ix2 (0 : Fin 1) q) = b (ix1 q)) :
    (dat2 (F := Ideal) V c).arrAt 2 cfg2.N = squash (V c main_v62) b :=
  (dat2 (F := Ideal) V c).arrAt_eq_of_cover 2 (squash (V c main_v62) b) (fun t _ => flushed_eq V c b hb t) cover

end Cert.KernelIdeal.Third

end
-- ==== Proof.LibTypedRef.lean ====
/-
  Typed references and lines of host operations: three general facts.

  An operation of a module-local function is spelt over typed references: its function is stated at the value's type
  `T` and moved to the buffer's own type along the reference's proof that the two types agree (`toBuf`), and an
  operand's contents are moved the other way (`ofBuf`). Both moves are the identity, since the proof they move along
  can only be reflexivity; the lemmas here say so for any typed reference, by taking the reference apart:

  * `ofBuf_toBuf`: there and back is the identity (what stands between two operations of a line that is read back);
  * `toBuf_eq`: a moved value equals contents of the buffer that are the same value (the outermost move);
  * `after_append`: the contents after two lines in a row are those after their concatenation, so a long line can be
    read back stretch by stretch.
-/
import Idealize.ShloMosaic.Lib.StableHlo.Run

noncomputable section

namespace Idealize.ShloMosaic.TypedRef

open Idealize.ShloMosaic Idealize.ShloMosaic.StableHlo

variable {nD : Nat} {τ : Topo} {sig : RefSig} {Val : EltTy → Type}

/-- A value moved to the buffer's type and back is the value. -/
theorem ofBuf_toBuf {T : BufTy} (x : TRef sig T) (v : T.Contents Val) : x.ofBuf (x.toBuf v) = v := by
  obtain ⟨r, rfl, h2, h3⟩ := x
  rfl

/-- A value moved to the buffer's type is any contents of the buffer that are the same value. -/
theorem toBuf_eq {T : BufTy} (x : TRef sig T) (v : T.Contents Val) (w : x.ref.ty.Contents Val) (h : HEq v w) :
    x.toBuf v = w := by
  obtain ⟨r, rfl, h2, h3⟩ := x
  exact eq_of_heq h

/-- The contents after a line and then another are the contents after their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

end Idealize.ShloMosaic.TypedRef

end
-- ==== Proof.Stretches.lean ====
/-
  The host lines of the kernel's program, stretch by stretch, for ANY contents `W` of a core's buffers when the stretch
  starts. The lines before the first region build, from the edge list alone, the source and target node of every edge
  (the given edges followed by one self-loop per node), each node's in-degree, its inverse square root where the degree is
  positive, and the edge weight (the product of the two end nodes' inverse square roots); the lines between the regions
  gather the rows of the previous region's output at the source nodes, scale them by the edge weights and add them up at
  the target nodes, and recast the next bias as a one-row array. Each is the same composition of operations the reference
  program applies (its stages `val_main_…`); on the extended reals the round trip through the narrower float format
  around the gather is the identity. An argument array that no line writes is left as it was.
-/
import proofs.«168433_j13907104104963_2_alg».proof.Proof.Gen.KernelIdeal.Launch
import proofs.«168433_j13907104104963_2_alg».proof.Proof.RefRead
import proofs.«168433_j13907104104963_2_alg».proof.Proof.LibTypedRef
import Idealize.ShloMosaic.Lib.StableHlo.Run

set_option maxRecDepth 16384

noncomputable section

namespace Cert.KernelIdeal.Host

open Cert.KernelIdeal Cert.KernelIdeal.Gen Cert.ReferenceIdeal.ReadP
open Idealize.ShloMosaic Idealize.ShloMosaic.TcCoe Idealize.ShloMosaic.StableHlo

variable (W : Valuation τ sig (Elt Ideal))

/-! ## Before the first region -/

/-- After the first stretch: whether each node's in-degree is positive, -/
theorem positive_of : StableHlo.after (hostOps0 (F := Ideal)) W (Proc.devRef .tc main_v12)
    = val_main_v13 (F := Ideal) (W (Proc.devRef .tc main_arg1)) := by
  dsimp only [hostOps0]
  after_results
  rfl

/-- the inverse square root of each node's in-degree, -/
theorem rsqrt_of : StableHlo.after (hostOps0 (F := Ideal)) W (Proc.devRef .tc main_v13)
    = val_main_v14 (F := Ideal) (W (Proc.devRef .tc main_arg1)) := by
  dsimp only [hostOps0]
  after_results
  rfl

/-- and the zero scalar the selection falls back to. -/
theorem fallback_of : StableHlo.after (hostOps0 (F := Ideal)) W (Proc.devRef .tc main_cst_2)
    = val_main_cst_2 (F := Ideal) := by
  dsimp only [hostOps0]
  after_results <;> rfl

/-- The selection: a node's inverse square root degree where the degree is positive, zero elsewhere. Its three operands and
    its result are named by typed references of the selecting function, so each is stated moved to its buffer's type; the
    moves there and back cancel. -/
theorem select_of (x1 : (⟨Cert.ReferenceIdeal.S2x1600000, .i32⟩ : BufTy).Contents (Elt Ideal))
    (e12 : W (Proc.devRef .tc main_v12)
      = (TRef.of main_v12 : TRef sig ⟨S50000, .i1⟩).toBuf (val_main_v13 (F := Ideal) x1))
    (e13 : W (Proc.devRef .tc main_v13)
      = (TRef.of main_v13 : TRef sig ⟨S50000, .f32⟩).toBuf (val_main_v14 (F := Ideal) x1))
    (ec : W (Proc.devRef .tc main_cst_2)
      = (TRef.of main_cst_2 : TRef sig ⟨S_, .f32⟩).toBuf (val_main_cst_2 (F := Ideal))) :
    StableHlo.after (hostOps0_1 (F := Ideal)) W (Proc.devRef .tc main_v14)
      = (TRef.of main_v14 : TRef sig ⟨S50000, .f32⟩).toBuf (val_main_v15 (F := Ideal) x1) := by
  dsimp only [hostOps0_1]
  after_results
  rw [e12, e13, ec]
  simp only [TypedRef.ofBuf_toBuf]
  rfl

/-- After the first two stretches: every edge's source node, -/
theorem source2_of : StableHlo.after (hostOps0_1 (F := Ideal)) (StableHlo.after (hostOps0 (F := Ideal)) W) (Proc.devRef .tc main_v3)
    = val_main_v3 (F := Ideal) (W (Proc.devRef .tc main_arg1)) := by
  dsimp only [hostOps0, hostOps0_1]
  after_results
  rfl

/-- every edge's target node, -/
theorem target2_of : StableHlo.after (hostOps0_1 (F := Ideal)) (StableHlo.after (hostOps0 (F := Ideal)) W) (Proc.devRef .tc main_v6)
    = val_main_v6 (F := Ideal) (W (Proc.devRef .tc main_arg1)) := by
  dsimp only [hostOps0, hostOps0_1]
  after_results
  rfl

/-- and every node's inverse square root degree. -/
theorem dinv2_of : StableHlo.after (hostOps0_1 (F := Ideal)) (StableHlo.after (hostOps0 (F := Ideal)) W) (Proc.devRef .tc main_v14)
    = val_main_v15 (F := Ideal) (W (Proc.devRef .tc main_arg1)) :=
  (select_of (StableHlo.after (hostOps0 (F := Ideal)) W) (W (Proc.devRef .tc main_arg1))
    ((positive_of W).trans (TypedRef.toBuf_eq (TRef.of main_v12 : TRef sig ⟨S50000, .i1⟩)
      (val_main_v13 (F := Ideal) (W (Proc.devRef .tc main_arg1))) _ HEq.rfl).symm)
    ((rsqrt_of W).trans (TypedRef.toBuf_eq (TRef.of main_v13 : TRef sig ⟨S50000, .f32⟩)
      (val_main_v14 (F := Ideal) (W (Proc.devRef .tc main_arg1))) _ HEq.rfl).symm)
    ((fallback_of W).trans (TypedRef.toBuf_eq (TRef.of main_cst_2 : TRef sig ⟨S_, .f32⟩)
      (val_main_cst_2 (F := Ideal)) _ HEq.rfl).symm)).trans
    (TypedRef.toBuf_eq (TRef.of main_v14 : TRef sig ⟨S50000, .f32⟩)
      (val_main_v15 (F := Ideal) (W (Proc.devRef .tc main_arg1))) _ HEq.rfl)

set_option maxHeartbeats 1000000 in
/-- The edge weights, from what the third stretch finds at the source nodes, the target nodes and the nodes' inverse
    square root degrees. -/
theorem weight_of (x1 : (⟨Cert.ReferenceIdeal.S2x1600000, .i32⟩ : BufTy).Contents (Elt Ideal))
    (e3 : W (Proc.devRef .tc main_v3) = val_main_v3 (F := Ideal) x1)
    (e6 : W (Proc.devRef .tc main_v6) = val_main_v6 (F := Ideal) x1)
    (e14 : W (Proc.devRef .tc main_v14) = val_main_v15 (F := Ideal) x1) :
    StableHlo.after (hostOps0_2 (F := Ideal)) W (Proc.devRef .tc main_v29) = val_main_v30 (F := Ideal) x1 := by
  dsimp only [hostOps0_2]
  after_results_simp
  rw [e3, e6, e14]
  rfl

/-- When the first region is entered: every edge's source node, -/
theorem source_of : StableHlo.after (hostOps0_2 (F := Ideal)) (StableHlo.after (hostOps0_1 (F := Ideal)) (StableHlo.after (hostOps0 (F := Ideal)) W)) (Proc.devRef .tc main_v3)
    = val_main_v3 (F := Ideal) (W (Proc.devRef .tc main_arg1)) := by
  dsimp only [hostOps0, hostOps0_1, hostOps0_2]
  after_results
  rfl

/-- every edge's target node, -/
theorem target_of : StableHlo.after (hostOps0_2 (F := Ideal)) (StableHlo.after (hostOps0_1 (F := Ideal)) (StableHlo.after (hostOps0 (F := Ideal)) W)) (Proc.devRef .tc main_v6)
    = val_main_v6 (F := Ideal) (W (Proc.devRef .tc main_arg1)) := by
  dsimp only [hostOps0, hostOps0_1, hostOps0_2]
  after_results
  rfl

/-- and every edge's weight. -/
theorem weight3_of : StableHlo.after (hostOps0_2 (F := Ideal)) (StableHlo.after (hostOps0_1 (F := Ideal)) (StableHlo.after (hostOps0 (F := Ideal)) W)) (Proc.devRef .tc main_v29)
    = val_main_v30 (F := Ideal) (W (Proc.devRef .tc main_arg1)) :=
  weight_of (StableHlo.after (hostOps0_1 (F := Ideal)) (StableHlo.after (hostOps0 (F := Ideal)) W)) (W (Proc.devRef .tc main_arg1)) (source2_of W) (target2_of W) (dinv2_of W)

/-- The three stretches before the first region leave the node features as they were. -/
theorem entry_arg0 : StableHlo.after (hostOps0_2 (F := Ideal)) (StableHlo.after (hostOps0_1 (F := Ideal)) (StableHlo.after (hostOps0 (F := Ideal)) W)) (Proc.devRef .tc main_arg0) = W (Proc.devRef .tc main_arg0) := by
  dsimp only [hostOps0, hostOps0_1, hostOps0_2]
  after_results <;> rfl

/-- The three stretches before the first region leave the first weight matrix as they were. -/
theorem entry_arg2 : StableHlo.after (hostOps0_2 (F := Ideal)) (StableHlo.after (hostOps0_1 (F := Ideal)) (StableHlo.after (hostOps0 (F := Ideal)) W)) (Proc.devRef .tc main_arg2) = W (Proc.devRef .tc main_arg2) := by
  dsimp only [hostOps0, hostOps0_1, hostOps0_2]
  after_results <;> rfl

/-- The three stretches before the first region leave the first bias as they were. -/
theorem entry_arg3 : StableHlo.after (hostOps0_2 (F := Ideal)) (StableHlo.after (hostOps0_1 (F := Ideal)) (StableHlo.after (hostOps0 (F := Ideal)) W)) (Proc.devRef .tc main_arg3) = W (Proc.devRef .tc main_arg3) := by
  dsimp only [hostOps0, hostOps0_1, hostOps0_2]
  after_results <;> rfl

/-- The three stretches before the first region leave the second weight matrix as they were. -/
theorem entry_arg4 : StableHlo.after (hostOps0_2 (F := Ideal)) (StableHlo.after (hostOps0_1 (F := Ideal)) (StableHlo.after (hostOps0 (F := Ideal)) W)) (Proc.devRef .tc main_arg4) = W (Proc.devRef .tc main_arg4) := by
  dsimp only [hostOps0, hostOps0_1, hostOps0_2]
  after_results <;> rfl

/-- The three stretches before the first region leave the second bias as they were. -/
theorem entry_arg5 : StableHlo.after (hostOps0_2 (F := Ideal)) (StableHlo.after (hostOps0_1 (F := Ideal)) (StableHlo.after (hostOps0 (F := Ideal)) W)) (Proc.devRef .tc main_arg5) = W (Proc.devRef .tc main_arg5) := by
  dsimp only [hostOps0, hostOps0_1, hostOps0_2]
  after_results <;> rfl

/-! ## Between the first and the second region -/

set_option maxHeartbeats 1000000 in
/-- The first aggregate: the first region's output gathered at the source nodes, scaled by the edge weights and added up
    at the target nodes, from what the stretch finds. -/
theorem aggregate1_of (x0 : (⟨Cert.ReferenceIdeal.S50000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (e3 : W (Proc.devRef .tc main_v3) = val_main_v3 (F := Ideal) x1)
    (e6 : W (Proc.devRef .tc main_v6) = val_main_v6 (F := Ideal) x1)
    (e29 : W (Proc.devRef .tc main_v29) = val_main_v30 (F := Ideal) x1)
    (e30 : W (Proc.devRef .tc main_v30) = val_main_v7 (F := Ideal) x0 x2) :
    StableHlo.after (hostOps1 (F := Ideal)) W (Proc.devRef .tc main_v45) = val_main_v43 (F := Ideal) x0 x1 x2 := by
  dsimp only [hostOps1]
  after_results_simp
  rw [e3, e6, e29, e30]
  rfl

/-- The first bias recast as a one-row array. -/
theorem row1_of : StableHlo.after (hostOps1 (F := Ideal)) W (Proc.devRef .tc main_v46)
    = shapeCast S1x128 (W (Proc.devRef .tc main_arg3)) shapeCasts_S128_S1x128 := by
  dsimp only [hostOps1]
  after_results <;> rfl

/-- The stretch leaves the source nodes as they were. -/
theorem mid_v3 : StableHlo.after (hostOps1 (F := Ideal)) W (Proc.devRef .tc main_v3) = W (Proc.devRef .tc main_v3) := by
  dsimp only [hostOps1]
  after_results <;> rfl

/-- The stretch leaves the target nodes as they were. -/
theorem mid_v6 : StableHlo.after (hostOps1 (F := Ideal)) W (Proc.devRef .tc main_v6) = W (Proc.devRef .tc main_v6) := by
  dsimp only [hostOps1]
  after_results <;> rfl

/-- The stretch leaves the edge weights as they were. -/
theorem mid_v29 : StableHlo.after (hostOps1 (F := Ideal)) W (Proc.devRef .tc main_v29) = W (Proc.devRef .tc main_v29) := by
  dsimp only [hostOps1]
  after_results <;> rfl

/-- The stretch leaves the second weight matrix as they were. -/
theorem mid_arg4 : StableHlo.after (hostOps1 (F := Ideal)) W (Proc.devRef .tc main_arg4) = W (Proc.devRef .tc main_arg4) := by
  dsimp only [hostOps1]
  after_results <;> rfl

/-- The stretch leaves the second bias as they were. -/
theorem mid_arg5 : StableHlo.after (hostOps1 (F := Ideal)) W (Proc.devRef .tc main_arg5) = W (Proc.devRef .tc main_arg5) := by
  dsimp only [hostOps1]
  after_results <;> rfl

/-! ## Between the second and the third region -/

set_option maxHeartbeats 1000000 in
/-- The second aggregate: the second region's output gathered at the source nodes, scaled by the edge weights and added
    up at the target nodes, from what the stretch finds. The reference computes the edge weights a second time, by the
    same operations of the same edge list. -/
theorem aggregate2_of (x0 : (⟨Cert.ReferenceIdeal.S50000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x64, .f32⟩ : BufTy).Contents (Elt Ideal))
    (e3 : W (Proc.devRef .tc main_v3) = val_main_v3 (F := Ideal) x1)
    (e6 : W (Proc.devRef .tc main_v6) = val_main_v6 (F := Ideal) x1)
    (e29 : W (Proc.devRef .tc main_v29) = val_main_v30 (F := Ideal) x1)
    (e47 : W (Proc.devRef .tc main_v47) = val_main_v48 (F := Ideal) x0 x1 x2 x3 x4) :
    StableHlo.after (hostOps2 (F := Ideal)) W (Proc.devRef .tc main_v62) = val_main_v84 (F := Ideal) x0 x1 x2 x3 x4 := by
  dsimp only [hostOps2]
  after_results_simp
  rw [e3, e6, e29, e47]
  rfl

/-- The second bias recast as a one-row array. -/
theorem row2_of : StableHlo.after (hostOps2 (F := Ideal)) W (Proc.devRef .tc main_v63)
    = shapeCast S1x64 (W (Proc.devRef .tc main_arg5)) shapeCasts_S64_S1x64 := by
  dsimp only [hostOps2]
  after_results <;> rfl

end Cert.KernelIdeal.Host

end
-- ==== Proof.RefLayers.lean ====
/-
  The reference program's three dense stages, read as the same whole-array functions as the kernel's regions: its first
  `dot_general` is `prod` of the features and the first weights; its second is `prod` of `hidden` of the first aggregate and
  the first bias with the second weights (the host adds the bias spread over the rows, takes the maximum with a zero
  array, then contracts); its last five lines, 1 / (1 + e^{-x}) spelt with negate, exponential, add and divide around
  the second aggregate plus the spread bias, are `squash` of that aggregate and the second bias, because on the extended
  reals the logistic function IS that expression and the word 0x3F800000 denotes 1.
-/
import proofs.«168433_j13907104104963_2_alg».proof.Proof.RefRead
import proofs.«168433_j13907104104963_2_alg».proof.Proof.Layers
import Idealize.ShloMosaic.Lib.IdealHost

noncomputable section

namespace Cert.ReferenceIdeal.Staged

open Cert.ReferenceIdeal Cert.ReferenceIdeal.ReadP Cert.Layers
open Idealize.ShloMosaic Idealize.ShloMosaic.ValueIdx

variable (x0 : (⟨S50000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The first contraction is the product of the features with the first weight matrix. -/
theorem first_product : val_main_v7 (F := Ideal) x0 x2 = prod x0 x2 := by
  funext i
  unfold val_main_v7
  exact PlainDot.hostDot_apply dot_S50000x128_S128x128_S50000x128_1_0_0_1_n_n rfl none x0 x2 i

/-- The bias spread over the rows reads, at (r, k), the bias at k. -/
theorem bias128_entry (j : S50000x128.Idx) : val_main_v45 (F := Ideal) x3 j = x3 (ix1 (j 1)) := by
  rw [val_main_v45_apply, val_main_v44_apply]
  exact congrArg x3 (funext fun a => match a with | ⟨0, _⟩ => rfl)

/-- The rectified, biased first aggregate is `hidden` of the aggregate and the bias. -/
theorem rectified : val_main_v47 (F := Ideal) x0 x1 x2 x3 = hidden (val_main_v43 (F := Ideal) x0 x1 x2) x3 := by
  funext j
  rw [val_main_v47_apply, val_main_v46_apply, bias128_entry, val_main_call1_v0_apply, val_main_call1_cst_apply]
  rfl

/-- The second contraction is the product of the rectified, biased first aggregate with the second weight matrix. -/
theorem second_product :
    val_main_v48 (F := Ideal) x0 x1 x2 x3 x4 = prod (hidden (val_main_v43 (F := Ideal) x0 x1 x2) x3) x4 := by
  rw [← rectified]
  funext i
  unfold val_main_v48
  exact PlainDot.hostDot_apply dot_S50000x128_S128x64_S50000x64_1_0_0_1_n_n rfl none
    (val_main_v47 (F := Ideal) x0 x1 x2 x3) x4 i

/-- The bias spread over the rows reads, at (r, c), the bias at c. -/
theorem bias64_entry (j : S50000x64.Idx) : val_main_v86 (F := Ideal) x5 j = x5 (ix1 (j 1)) := by
  rw [val_main_v86_apply, val_main_v85_apply]
  exact congrArg x5 (funext fun a => match a with | ⟨0, _⟩ => rfl)

/-- One over one plus the exponential of the negation, with both ones spelt as the f32 word 0x3F800000, is the logistic
    function: that word denotes 1, and the logistic function on the extended reals is this expression. -/
theorem host_logistic (a : EReal) :
    FloatOps.hostDivf (F := Ideal) (φ := .f32) (FloatOps.ofBits .f32 0x3F800000#32)
      (FloatOps.addf (FloatOps.ofBits .f32 0x3F800000#32) (FloatOps.hostUnary .exp (FloatOps.hostNegf a)))
      = Ideal.logistic a := by
  show Ideal.div (Ideal.ofBits .f32 0x3F800000#32) (Ideal.ofBits .f32 0x3F800000#32 + Ideal.exp (-a)) = Ideal.logistic a
  rw [Ideal.ofBits_one_f32]
  rfl

/-- The result is the logistic function of the biased second aggregate. -/
theorem squashed :
    val_main_v93 (F := Ideal) x0 x1 x2 x3 x4 x5 = squash (val_main_v84 (F := Ideal) x0 x1 x2 x3 x4) x5 := by
  funext j
  rw [val_main_v93_apply, val_main_v92_apply, val_main_cst_21_apply, val_main_v91_apply, val_main_v90_apply,
    val_main_cst_20_apply, val_main_v89_apply, val_main_v88_apply, val_main_v87_apply, bias64_entry]
  exact host_logistic _

end Cert.ReferenceIdeal.Staged

end
-- ==== Proof.Result.lean ====
/-
  The idealized kernel's result as a function of its six argument arrays. Following the buffers through @main, boundary
  by boundary: when the first region is entered the host lines have built the edges' source and target nodes and weights
  from the edge list, and the argument arrays are untouched; the first region leaves the product of the features with the
  first weights; the next host lines aggregate it along the edges; the second region leaves the product of the rectified,
  biased aggregate with the second weights; the next host lines aggregate that; the third region leaves the logistic
  function of the biased second aggregate. Each step is the reference program's stage of the same name, so the result
  array ends holding the reference's last stage of the argument arrays as launched.
-/
import proofs.«168433_j13907104104963_2_alg».proof.Proof.KernelRun
import proofs.«168433_j13907104104963_2_alg».proof.Proof.Region0
import proofs.«168433_j13907104104963_2_alg».proof.Proof.Region1
import proofs.«168433_j13907104104963_2_alg».proof.Proof.Region2
import proofs.«168433_j13907104104963_2_alg».proof.Proof.Stretches
import proofs.«168433_j13907104104963_2_alg».proof.Proof.RefLayers
import Idealize.ShloMosaic.Lib.ValueLayout

set_option maxRecDepth 16384

noncomputable section

namespace Cert.KernelIdeal.Whole

open Cert.KernelIdeal Cert.KernelIdeal.Gen Cert.Layers Cert.ReferenceIdeal.ReadP
open Idealize.ShloMosaic Idealize.ShloMosaic.TcCoe Idealize.SL.Sem Idealize.ShloMosaic.ValueIdx
open Idealize.ShloMosaic.Pipeline (Dat)

/-! ## Each region's array, with what its windows stage named -/

section Regions
variable (V : (c : Dev nD) → (b : Ref sig .tc) → Buf (Elt Ideal) ((c : Thread nD τ).loc b)) (c : Dev nD)

theorem first_of (A0 : Mat 50000 128) (A1 : Mat 128 128) (h0 : V c main_arg0 = A0) (h1 : V c main_arg2 = A1) :
    (dat0 (F := Ideal) V c).arrAt 2 cfg0.N = prod A0 A1 := by
  subst h0 h1; exact First.array V c

theorem second_of (A : Mat 50000 128) (b : Row 128) (Wt : Mat 128 64) (hA : V c main_v45 = A)
    (hb : ∀ k : Fin 128, V c main_v46 (ix2 (0 : Fin 1) k) = b (ix1 k)) (hW : V c main_arg4 = Wt) :
    (dat1 (F := Ideal) V c).arrAt 3 cfg1.N = prod (hidden A b) Wt := by
  subst hA hW; exact Second.array V c b hb

theorem third_of (A : Mat 50000 64) (b : Row 64) (hA : V c main_v62 = A)
    (hb : ∀ q : Fin 64, V c main_v63 (ix2 (0 : Fin 1) q) = b (ix1 q)) :
    (dat2 (F := Ideal) V c).arrAt 2 cfg2.N = squash A b := by
  subst hA; exact Third.array V c b hb

end Regions

variable (m : (ℓ : Loc nD τ sig) → Buf (Elt Ideal) ℓ) (ρ : Dev nD → PrngReg) (c : Dev nD)

/-! ## The argument arrays as launched -/

/-- The node features, -/
abbrev feat : (⟨Cert.ReferenceIdeal.S50000x128, .f32⟩ : BufTy).Contents (Elt Ideal) := m ((c.tc : Thread nD τ).loc main_arg0)
/-- the edge list, -/
abbrev edges : (⟨Cert.ReferenceIdeal.S2x1600000, .i32⟩ : BufTy).Contents (Elt Ideal) := m ((c.tc : Thread nD τ).loc main_arg1)
/-- the first weight matrix and bias, -/
abbrev w0 : (⟨Cert.ReferenceIdeal.S128x128, .f32⟩ : BufTy).Contents (Elt Ideal) := m ((c.tc : Thread nD τ).loc main_arg2)
abbrev b0 : (⟨Cert.ReferenceIdeal.S128, .f32⟩ : BufTy).Contents (Elt Ideal) := m ((c.tc : Thread nD τ).loc main_arg3)
/-- the second weight matrix and bias. -/
abbrev w1 : (⟨Cert.ReferenceIdeal.S128x64, .f32⟩ : BufTy).Contents (Elt Ideal) := m ((c.tc : Thread nD τ).loc main_arg4)
abbrev b1 : (⟨Cert.ReferenceIdeal.S64, .f32⟩ : BufTy).Contents (Elt Ideal) := m ((c.tc : Thread nD τ).loc main_arg5)

/-! ## When the first region is entered -/

theorem at3_src : W3 m ρ c (Proc.devRef .tc main_v3) = val_main_v3 (F := Ideal) (edges m c) := Host.source_of (W0 m ρ c)
theorem at3_dst : W3 m ρ c (Proc.devRef .tc main_v6) = val_main_v6 (F := Ideal) (edges m c) := Host.target_of (W0 m ρ c)
theorem at3_wt : W3 m ρ c (Proc.devRef .tc main_v29) = val_main_v30 (F := Ideal) (edges m c) := Host.weight3_of (W0 m ρ c)
theorem at3_arg0 : W3 m ρ c (Proc.devRef .tc main_arg0) = feat m c := Host.entry_arg0 (W0 m ρ c)
theorem at3_arg2 : W3 m ρ c (Proc.devRef .tc main_arg2) = w0 m c := Host.entry_arg2 (W0 m ρ c)
theorem at3_arg3 : W3 m ρ c (Proc.devRef .tc main_arg3) = b0 m c := Host.entry_arg3 (W0 m ρ c)
theorem at3_arg4 : W3 m ρ c (Proc.devRef .tc main_arg4) = w1 m c := Host.entry_arg4 (W0 m ρ c)
theorem at3_arg5 : W3 m ρ c (Proc.devRef .tc main_arg5) = b1 m c := Host.entry_arg5 (W0 m ρ c)

/-! ## After the first region -/

/-- Its output array holds the reference's first contraction. -/
theorem at4_out : W4 m ρ c (Proc.devRef .tc main_v30) = val_main_v7 (F := Ideal) (feat m c) (w0 m c) :=
  (W4_arr m ρ c 2).trans ((first_of (V3 m ρ) c (feat m c) (w0 m c) (at3_arg0 m ρ c) (at3_arg2 m ρ c)).trans
    (Cert.ReferenceIdeal.Staged.first_product (feat m c) (w0 m c)).symm)

theorem at4_src : W4 m ρ c (Proc.devRef .tc main_v3) = val_main_v3 (F := Ideal) (edges m c) :=
  (W4_of_ne m ρ c main_v3 (by decide)).trans (at3_src m ρ c)
theorem at4_dst : W4 m ρ c (Proc.devRef .tc main_v6) = val_main_v6 (F := Ideal) (edges m c) :=
  (W4_of_ne m ρ c main_v6 (by decide)).trans (at3_dst m ρ c)
theorem at4_wt : W4 m ρ c (Proc.devRef .tc main_v29) = val_main_v30 (F := Ideal) (edges m c) :=
  (W4_of_ne m ρ c main_v29 (by decide)).trans (at3_wt m ρ c)
theorem at4_arg3 : W4 m ρ c (Proc.devRef .tc main_arg3) = b0 m c :=
  (W4_of_ne m ρ c main_arg3 (by decide)).trans (at3_arg3 m ρ c)
theorem at4_arg4 : W4 m ρ c (Proc.devRef .tc main_arg4) = w1 m c :=
  (W4_of_ne m ρ c main_arg4 (by decide)).trans (at3_arg4 m ρ c)
theorem at4_arg5 : W4 m ρ c (Proc.devRef .tc main_arg5) = b1 m c :=
  (W4_of_ne m ρ c main_arg5 (by decide)).trans (at3_arg5 m ρ c)

/-! ## When the second region is entered -/

/-- The first aggregate, -/
theorem at5_agg : W5 m ρ c (Proc.devRef .tc main_v45) = val_main_v43 (F := Ideal) (feat m c) (edges m c) (w0 m c) :=
  Host.aggregate1_of (W4 m ρ c) (feat m c) (edges m c) (w0 m c) (at4_src m ρ c) (at4_dst m ρ c) (at4_wt m ρ c) (at4_out m ρ c)

/-- the first bias as a one-row array, -/
theorem at5_row (k : Fin 128) : W5 m ρ c (Proc.devRef .tc main_v46) (ix2 (0 : Fin 1) k) = b0 m c (ix1 k) := by
  have h : W5 m ρ c (Proc.devRef .tc main_v46)
      = shapeCast S1x128 (W4 m ρ c (Proc.devRef .tc main_arg3)) shapeCasts_S128_S1x128 := Host.row1_of (W4 m ρ c)
  rw [h, at4_arg3 m ρ c]
  exact shapeCast_a_1a_apply (b0 m c) shapeCasts_S128_S1x128 0 k

/-- and the second weight matrix. -/
theorem at5_arg4 : W5 m ρ c (Proc.devRef .tc main_arg4) = w1 m c :=
  (Host.mid_arg4 (W4 m ρ c)).trans (at4_arg4 m ρ c)

/-! ## After the second region -/

/-- Its output array holds the reference's second contraction. -/
theorem at6_out : W6 m ρ c (Proc.devRef .tc main_v47)
    = val_main_v48 (F := Ideal) (feat m c) (edges m c) (w0 m c) (b0 m c) (w1 m c) :=
  (W6_arr m ρ c 3).trans ((second_of (V5 m ρ) c (val_main_v43 (F := Ideal) (feat m c) (edges m c) (w0 m c)) (b0 m c) (w1 m c)
      (at5_agg m ρ c) (at5_row m ρ c) (at5_arg4 m ρ c)).trans
    (Cert.ReferenceIdeal.Staged.second_product (feat m c) (edges m c) (w0 m c) (b0 m c) (w1 m c)).symm)

theorem at6_src : W6 m ρ c (Proc.devRef .tc main_v3) = val_main_v3 (F := Ideal) (edges m c) :=
  (W6_of_ne m ρ c main_v3 (by decide)).trans ((Host.mid_v3 (W4 m ρ c)).trans (at4_src m ρ c))
theorem at6_dst : W6 m ρ c (Proc.devRef .tc main_v6) = val_main_v6 (F := Ideal) (edges m c) :=
  (W6_of_ne m ρ c main_v6 (by decide)).trans ((Host.mid_v6 (W4 m ρ c)).trans (at4_dst m ρ c))
theorem at6_wt : W6 m ρ c (Proc.devRef .tc main_v29) = val_main_v30 (F := Ideal) (edges m c) :=
  (W6_of_ne m ρ c main_v29 (by decide)).trans ((Host.mid_v29 (W4 m ρ c)).trans (at4_wt m ρ c))
theorem at6_arg5 : W6 m ρ c (Proc.devRef .tc main_arg5) = b1 m c :=
  (W6_of_ne m ρ c main_arg5 (by decide)).trans ((Host.mid_arg5 (W4 m ρ c)).trans (at4_arg5 m ρ c))

/-! ## When the third region is entered -/

/-- The second aggregate, -/
theorem at7_agg : W7 m ρ c (Proc.devRef .tc main_v62)
    = val_main_v84 (F := Ideal) (feat m c) (edges m c) (w0 m c) (b0 m c) (w1 m c) :=
  Host.aggregate2_of (W6 m ρ c) (feat m c) (edges m c) (w0 m c) (b0 m c) (w1 m c)
    (at6_src m ρ c) (at6_dst m ρ c) (at6_wt m ρ c) (at6_out m ρ c)

/-- and the second bias as a one-row array. -/
theorem at7_row (q : Fin 64) : W7 m ρ c (Proc.devRef .tc main_v63) (ix2 (0 : Fin 1) q) = b1 m c (ix1 q) := by
  have h : W7 m ρ c (Proc.devRef .tc main_v63)
      = shapeCast S1x64 (W6 m ρ c (Proc.devRef .tc main_arg5)) shapeCasts_S64_S1x64 := Host.row2_of (W6 m ρ c)
  rw [h, at6_arg5 m ρ c]
  exact shapeCast_a_1a_apply (b1 m c) shapeCasts_S64_S1x64 0 q

/-! ## The result -/

/-- After the third region the result array holds the reference's last stage of the argument arrays as launched. -/
theorem result : W8 m ρ c (Proc.devRef .tc main_v64)
    = val_main_v93 (F := Ideal) (feat m c) (edges m c) (w0 m c) (b0 m c) (w1 m c) (b1 m c) :=
  (last_result m ρ c).trans ((third_of (V7 m ρ) c (val_main_v84 (F := Ideal) (feat m c) (edges m c) (w0 m c) (b0 m c) (w1 m c))
      (b1 m c) (at7_agg m ρ c) (at7_row m ρ c)).trans
    (Cert.ReferenceIdeal.Staged.squashed (feat m c) (edges m c) (w0 m c) (b0 m c) (w1 m c) (b1 m c)).symm)

/-- Every weakly fair execution of the idealized kernel's @main terminates, nothing faulting, with the result array at
    the reference's last stage of the argument arrays and the argument arrays as launched. -/
theorem run : θ_run defs (onTc (τ := τ) (main (F := Ideal))) ⟨m, fun _ => 0, ρ⟩ (fun r => ∀ c : Dev nD,
      r.2.mem ((c.tc : Thread nD τ).loc main_v64)
        = val_main_v93 (F := Ideal) (feat m c) (edges m c) (w0 m c) (b0 m c) (w1 m c) (b1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (run_named m ρ)

end Cert.KernelIdeal.Whole

end
-- ==== Proof.lean ====
/-
  A two-layer graph convolution with a logistic output, as a kernel program of three pallas regions and as a plain
  reference, compared on the extended reals.

  Both programs build, from the edge list, each edge's source and target node (the given edges and one self-loop per node),
  each node's in-degree d, and the edge weight d(source)^(-1/2) · d(target)^(-1/2) where the degrees are positive. A layer
  multiplies the node features by a weight matrix, gathers the rows at the source nodes, scales them by the edge weights, adds
  them up at the target nodes and adds a bias; the first layer is rectified, the second goes through the logistic function.
  The kernel does the two matrix products and the final bias-and-logistic step in pallas regions over ten row blocks of 5000
  nodes, adds each bias inside the region that consumes the aggregate, computes the edge weights once, and rounds to a narrower
  float format before each product and each gather; the reference does everything on the host, adds each bias right after
  its aggregate and computes the edge weights once per layer. On the extended reals a change of float format is the identity,
  a product accumulated into zero is the plain sum over the contracted axis, and the logistic function is 1 / (1 + e^(-x)), so
  stage by stage the two programs apply the same functions to the same arrays: no law beyond these is needed, and the
  finiteness of the inputs is never used.

  The kernel's and the idealized kernel's frames are the generated ones; the reference's frame is its run with the result
  dropped; no rewrite was made when the kernel was idealized, so nothing is to be preserved; and the two idealized programs,
  run from memories that agree on the six arguments, both end with the result array at the reference's last stage of those
  arguments (Proof/Result.lean for the kernel, the reference's run read back for the reference).
-/
import proofs.«168433_j13907104104963_2_alg».proof.Defs
import proofs.«168433_j13907104104963_2_alg».proof.Proof.Gen.Kernel
import proofs.«168433_j13907104104963_2_alg».proof.Proof.Gen.Kernel.Frame
import proofs.«168433_j13907104104963_2_alg».proof.Proof.Gen.KernelIdeal
import proofs.«168433_j13907104104963_2_alg».proof.Proof.Gen.KernelIdeal.Frame
import proofs.«168433_j13907104104963_2_alg».proof.Proof.Gen.ReferenceIdeal
import proofs.«168433_j13907104104963_2_alg».proof.Proof.Gen.Pre_finite_inputs
import proofs.«168433_j13907104104963_2_alg».proof.Proof.RefRun
import proofs.«168433_j13907104104963_2_alg».proof.Proof.RefRead
import proofs.«168433_j13907104104963_2_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The idealized kernel is the kernel's own text read on the extended reals: no rewrite, nothing to preserve. -/
theorem preserves : Cert.preserves_Kernel_KernelIdeal := trivial

/-- From memories agreeing on the six arguments both idealized programs end with the result array at the reference's last
    stage of those arguments. -/
theorem algebraic : Cert.algebraic_KernelIdeal_ReferenceIdeal := by
  intro m ρ m' ρ' _ hagree
  refine ⟨fun c => Cert.ReferenceIdeal.ReadP.val_main_v93 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v93_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
